-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x512 : Shape := ⟨2, ![5000, 512]⟩
abbrev S5000x256 : Shape := ⟨2, ![5000, 256]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 120
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x512, .bf16⟩
  | .hbm, ⟨49, _⟩ => ⟨S512x256, .bf16⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .bf16⟩
  | .hbm, ⟨74, _⟩ => ⟨S256x256, .bf16⟩
  | .hbm, ⟨75, _⟩ => ⟨S50000x256, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x1, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x256, .bf16⟩
  | .hbm, ⟨99, _⟩ => ⟨S256x64, .bf16⟩
  | .hbm, ⟨100, _⟩ => ⟨S50000x64, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x256, .bf16⟩
  | .local _ .vmem, ⟨8, _⟩ => ⟨S5000x256, .f32⟩
  | .local _ .vmem, ⟨9, _⟩ => ⟨S5000x256, .f32⟩
  | .local _ .vmem, ⟨10, _⟩ => ⟨S5000x256, .bf16⟩
  | .local _ .vmem, ⟨11, _⟩ => ⟨S5000x256, .bf16⟩
  | .local _ .vmem, ⟨12, _⟩ => ⟨S256x64, .bf16⟩
  | .local _ .vmem, ⟨13, _⟩ => ⟨S5000x64, .f32⟩
  | .local _ .vmem, ⟨14, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v30) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x64, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x64, .f32⟩
  | .hbm, ⟨104, _⟩ => ⟨S850000x1, .f32⟩
  | .hbm, ⟨105, _⟩ => ⟨S850000x64, .f32⟩
  | .hbm, ⟨106, _⟩ => ⟨S850000x64, .f32⟩
  | .hbm, ⟨107, _⟩ => ⟨S_, .f32⟩
  | .hbm, ⟨108, _⟩ => ⟨S50000x64, .f32⟩
  | .hbm, ⟨109, _⟩ => ⟨S850000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The graph convolution network both programs compute, as named functions of whole arrays.

  The edge list `e : i32[2, 800000]` gives sources (row 0) and destinations (row 1); every node gets a self loop, so
  the lists `src`, `dst : i32[850000]` are a row of `e` followed by 0 … 49999. The degree of a node is the number of
  list entries whose destination it is (a scatter-add of ones), `dinv = deg^(-1/2)` where the degree is positive and
  0 elsewhere, and the weight of list entry `j` is `norm j = dinv[src j] · dinv[dst j]`. One layer takes node features
  `h : [50000, n]` (already multiplied by the layer's weight matrix) to `out[v] = Σ_{j : dst j = v} h[src j] · norm j + b`:
  a row gather, a scaling, a scatter-add into zeros, a bias. Three layers, the first two followed by `max · 0`, with
  feature widths 512 → 256 → 256 → 64.

  The three matrix products are PARAMETERS `d1 d2 d3` of `gcn`: everything else of the two programs is this one text,
  so they agree as soon as their products do. Generic in the float instance; nothing here is ever unfolded on values.
-/
import proofs.«138306_j10333691314775_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- Sources: row 0 of the edge list, then the self loops 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Destinations: row 1 of the edge list, then the self loops 0 … 49999. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node index counts from the end: `v + 50000` where `v < 0`, else `v`. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Degrees: ones added at every list entry's destination. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- `deg^(-1/2)` where the degree is positive, 0 elsewhere. -/
def dinvOf (deg : (⟨S50000, .f32⟩ : BufTy).Contents (Elt F)) : (⟨S50000, .f32⟩ : BufTy).Contents (Elt F) :=
  select (cmpf (F := F) .ogt deg (broadcastInDim S50000 ![] bcast_S_S50000 (constant S_ .f32 0x00000000#32))) (Host.rsqrt deg) (broadcastInDim S50000 ![] bcast_S_S50000 (id (constant S_ .f32 0x00000000#32)))

/-- The weight of each list entry: `dinv` at its source times `dinv` at its destination. -/
def normOf (src dst : (⟨S850000, .i32⟩ : BufTy).Contents (Elt F)) : (⟨S850000, .f32⟩ : BufTy).Contents (Elt F) :=
  mulf (Host.gather gather_S50000_S850000x1_S850000_n_0_n_n_0_1_1 (dinvOf (degOf dst)) (broadcastInDim S850000x1 ![0] bcast_S850000_S850000x1_0 (wrapIdx src))) (Host.gather gather_S50000_S850000x1_S850000_n_0_n_n_0_1_1 (dinvOf (degOf dst)) (broadcastInDim S850000x1 ![0] bcast_S850000_S850000x1_0 (wrapIdx dst)))

/-- One aggregation at width 256: gather the rows at the sources, scale by the weights, add at the destinations, add the bias. -/
def agg256 (src dst : (⟨S850000, .i32⟩ : BufTy).Contents (Elt F)) (norm : (⟨S850000, .f32⟩ : BufTy).Contents (Elt F)) (h : (⟨S50000x256, .f32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 h (broadcastInDim S850000x1 ![0] bcast_S850000_S850000x1_0 (wrapIdx src))) (broadcastInDim S850000x256 ![0, 1] bcast_S850000x1_S850000x256_0_1 (broadcastInDim S850000x1 ![0] bcast_S850000_S850000x1_0 norm)))) (broadcastInDim S50000x256 ![0, 1] bcast_S1x256_S50000x256_0_1 (broadcastInDim S1x256 ![1] bcast_S256_S1x256_1 b))

/-- The same at width 64. -/
def agg64 (src dst : (⟨S850000, .i32⟩ : BufTy).Contents (Elt F)) (norm : (⟨S850000, .f32⟩ : BufTy).Contents (Elt F)) (h : (⟨S50000x64, .f32⟩ : BufTy).Contents (Elt F)) (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrapIdx src))) (broadcastInDim S850000x64 ![0, 1] bcast_S850000x1_S850000x64_0_1 (broadcastInDim S850000x1 ![0] bcast_S850000_S850000x1_0 norm)))) (broadcastInDim S50000x64 ![0, 1] bcast_S1x64_S50000x64_0_1 (broadcastInDim S1x64 ![1] bcast_S64_S1x64_1 b))

/-- `max · 0`, elementwise. -/
def relu256 (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The hidden features after layer 1, from the first product's result `p1`. -/
def hidden (e : (⟨S2x800000, .i32⟩ : BufTy).Contents (Elt F)) (p : (⟨S50000x256, .f32⟩ : BufTy).Contents (Elt F)) (b : (⟨S256, .f32⟩ : BufTy).Contents (Elt F)) : (⟨S50000x256, .f32⟩ : BufTy).Contents (Elt F) :=
  relu256 (agg256 (srcOf e) (dstOf e) (normOf (srcOf e) (dstOf e)) p b)

/-- The last layer's output from the third product's result. -/
def output (e : (⟨S2x800000, .i32⟩ : BufTy).Contents (Elt F)) (p : (⟨S50000x64, .f32⟩ : BufTy).Contents (Elt F)) (b : (⟨S64, .f32⟩ : BufTy).Contents (Elt F)) : (⟨S50000x64, .f32⟩ : BufTy).Contents (Elt F) :=
  agg64 (srcOf e) (dstOf e) (normOf (srcOf e) (dstOf e)) p b

/-- The whole network over three given matrix products. -/
def gcn (d1 : (⟨S50000x512, .f32⟩ : BufTy).Contents (Elt F) → (⟨S512x256, .f32⟩ : BufTy).Contents (Elt F) → (⟨S50000x256, .f32⟩ : BufTy).Contents (Elt F))
    (d2 : (⟨S50000x256, .f32⟩ : BufTy).Contents (Elt F) → (⟨S256x256, .f32⟩ : BufTy).Contents (Elt F) → (⟨S50000x256, .f32⟩ : BufTy).Contents (Elt F))
    (d3 : (⟨S50000x256, .f32⟩ : BufTy).Contents (Elt F) → (⟨S256x64, .f32⟩ : BufTy).Contents (Elt F) → (⟨S50000x64, .f32⟩ : BufTy).Contents (Elt F))
    (x : (⟨S50000x512, .f32⟩ : BufTy).Contents (Elt F)) (e : (⟨S2x800000, .i32⟩ : BufTy).Contents (Elt F))
    (W1 : (⟨S512x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F))
    (W3 : (⟨S256x64, .f32⟩ : BufTy).Contents (Elt F)) (b3 : (⟨S64, .f32⟩ : BufTy).Contents (Elt F)) : (⟨S50000x64, .f32⟩ : BufTy).Contents (Elt F) :=
  output e (d3 (hidden e (d2 (hidden e (d1 x W1) b1) W2) b2) W3) b3

end Cert.Gcn

end
-- ==== Proof.Products.lean ====
/-
  The three layers' matrix products as the reference computes them: a host `dot_general` contracting the left
  operand's columns with the right operand's rows, [50000, K] × [K, N] → [50000, N], for (K, N) = (512, 256),
  (256, 256), (256, 64). At the exact instance each entry is the sum over `k` of the operands' products.
-/
import proofs.«138306_j10333691314775_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- Layer 1: features times the first weight matrix. -/
abbrev prod1 (l : (⟨S50000x512, .f32⟩ : BufTy).Contents (Elt F)) (r : (⟨S512x256, .f32⟩ : BufTy).Contents (Elt F)) : (⟨S50000x256, .f32⟩ : BufTy).Contents (Elt F) :=
  Host.dotGeneral dot_S50000x512_S512x256_S50000x256_1_0_0_1_n_n none l r
/-- Layer 2. -/
abbrev prod2 (l : (⟨S50000x256, .f32⟩ : BufTy).Contents (Elt F)) (r : (⟨S256x256, .f32⟩ : BufTy).Contents (Elt F)) : (⟨S50000x256, .f32⟩ : BufTy).Contents (Elt F) :=
  Host.dotGeneral dot_S50000x256_S256x256_S50000x256_1_0_0_1_n_n none l r
/-- Layer 3. -/
abbrev prod3 (l : (⟨S50000x256, .f32⟩ : BufTy).Contents (Elt F)) (r : (⟨S256x64, .f32⟩ : BufTy).Contents (Elt F)) : (⟨S50000x64, .f32⟩ : BufTy).Contents (Elt F) :=
  Host.dotGeneral dot_S50000x256_S256x64_S50000x64_1_0_0_1_n_n none l r

end Cert.Gcn

end
-- ==== Proof.RefValue.lean ====
/-
  The reference's result is the network over three host matrix products.

  The reference program is host operations only; its run ends with the result array at ONE composed term of the
  argument arrays. That term is, operation for operation, the network's text (Spec) with each layer's product a
  host `dot_general` of the layer's input and its weight matrix: the equation unfolds the named functions and
  nothing else.
-/
import proofs.«138306_j10333691314775_1_alg».proof.Proof.RefRun
import proofs.«138306_j10333691314775_1_alg».proof.Proof.Spec
import proofs.«138306_j10333691314775_1_alg».proof.Proof.Products

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The run's result term is the network of the argument arrays. -/
theorem result_eq (m : (ℓ : Loc nD τ sig) → Buf (Elt F) ℓ) (c : Dev nD) :
    Cert.ReferenceIdeal.ValueP.res_main_v82 m c =
      Cert.Gcn.gcn (Cert.Gcn.prod1 (F := F)) (Cert.Gcn.prod2 (F := F)) (Cert.Gcn.prod3 (F := F)) (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v82
  rfl

end Cert.ReferenceIdeal.RefValue

end
-- ==== Proof.KernelRun.lean ====
/-
  The run of the idealized kernel program with its RESULT named.

  @main is thirteen segments: stretches of host operations and three row-blocked matrix products between them. The
  frame module folds the buffer contents through the segments — `W0` the launch memory, `W(j+1)` what segment `j`
  leaves — and its launch over those segments ends with EVERY unscoped buffer at the last boundary's contents `W13`;
  its own statement keeps of that only the eight argument arrays. Stated here is the same launch with the result
  buffer kept as well: every weakly fair execution terminates, nothing faulting, with the result array at
  `W13 … main_v88` and the arguments as launched. What `W13` holds at the result buffer is computed elsewhere.
-/
import proofs.«138306_j10333691314775_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result array at the last boundary's contents and every argument array as launched. -/
theorem run_out : θ_run defs (onTc (τ := τ) (main (F := F))) ⟨m, fun _ => 0, ρ⟩ (fun r => ∀ c : Dev nD,
      r.2.mem ((c.tc : Thread nD τ).loc main_v88) = W13 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v88 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.RunValue

end
-- ==== Proof.KernelHost.lean ====
/-
  The host operations of the idealized kernel program, stretch by stretch.

  Between the launch and the first matrix product, between the products, and after the last one, @main is plain host
  operations. Each lemma reads one buffer at a boundary of the run's fold (`W3`, `W7`, `W11`: the contents the three
  products find; `W13`: the last) as the network's named functions (Spec) of the contents at the previous product's
  exit (`W4`, `W8`, `W12`), or — before the first product — of the launch memory. A buffer no operation of a stretch
  writes is carried over unchanged. Nothing here looks inside a product, a gather or a scatter.
-/
import proofs.«138306_j10333691314775_1_alg».proof.Proof.Gen.KernelIdeal.Frame
import proofs.«138306_j10333691314775_1_alg».proof.Proof.Spec
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## From the launch to the first product -/

/-- The source list. -/
theorem entry0_src (c : Dev nD) : W3 m ρ c (Proc.devRef .tc main_v5) = Cert.Gcn.srcOf (m ((c : Thread nD τ).loc main_arg1)) := by
  dsimp only [W3, W2, W1, hostOps0_2, hostOps0_1, hostOps0]
  after_results_simp
  first | done | rfl

/-- The destination list. -/
theorem entry0_dst (c : Dev nD) : W3 m ρ c (Proc.devRef .tc main_v6) = Cert.Gcn.dstOf (m ((c : Thread nD τ).loc main_arg1)) := by
  dsimp only [W3, W2, W1, hostOps0_2, hostOps0_1, hostOps0]
  after_results_simp
  first | done | rfl

/-- The edge weights. -/
theorem entry0_norm (c : Dev nD) : W3 m ρ c (Proc.devRef .tc main_v29) = Cert.Gcn.normOf (Cert.Gcn.srcOf (m ((c : Thread nD τ).loc main_arg1))) (Cert.Gcn.dstOf (m ((c : Thread nD τ).loc main_arg1))) := by
  dsimp only [W3, W2, W1, hostOps0_2, hostOps0_1, hostOps0]
  after_results_simp
  first | done | rfl

/-- The first product's left operand: the features, narrowed. -/
theorem entry0_lhs (c : Dev nD) : W3 m ρ c (Proc.devRef .tc main_v30) = truncf .bf16 (m ((c : Thread nD τ).loc main_arg0)) bitsLt_bf16_f32 := by
  dsimp only [W3, W2, W1, hostOps0_2, hostOps0_1, hostOps0]
  after_results_simp
  first | done | rfl

/-- The first product's right operand: the first weight matrix, narrowed. -/
theorem entry0_rhs (c : Dev nD) : W3 m ρ c (Proc.devRef .tc main_v31) = truncf .bf16 (m ((c : Thread nD τ).loc main_arg2)) bitsLt_bf16_f32 := by
  dsimp only [W3, W2, W1, hostOps0_2, hostOps0_1, hostOps0]
  after_results_simp
  first | done | rfl

theorem entry0_arg3 (c : Dev nD) : W3 m ρ c (Proc.devRef .tc main_arg3) = (m ((c : Thread nD τ).loc main_arg3)) := by
  dsimp only [W3, W2, W1, hostOps0_2, hostOps0_1, hostOps0]
  after_results_simp
  first | done | rfl

theorem entry0_arg4 (c : Dev nD) : W3 m ρ c (Proc.devRef .tc main_arg4) = (m ((c : Thread nD τ).loc main_arg4)) := by
  dsimp only [W3, W2, W1, hostOps0_2, hostOps0_1, hostOps0]
  after_results_simp
  first | done | rfl

theorem entry0_arg5 (c : Dev nD) : W3 m ρ c (Proc.devRef .tc main_arg5) = (m ((c : Thread nD τ).loc main_arg5)) := by
  dsimp only [W3, W2, W1, hostOps0_2, hostOps0_1, hostOps0]
  after_results_simp
  first | done | rfl

theorem entry0_arg6 (c : Dev nD) : W3 m ρ c (Proc.devRef .tc main_arg6) = (m ((c : Thread nD τ).loc main_arg6)) := by
  dsimp only [W3, W2, W1, hostOps0_2, hostOps0_1, hostOps0]
  after_results_simp
  first | done | rfl

theorem entry0_arg7 (c : Dev nD) : W3 m ρ c (Proc.devRef .tc main_arg7) = (m ((c : Thread nD τ).loc main_arg7)) := by
  dsimp only [W3, W2, W1, hostOps0_2, hostOps0_1, hostOps0]
  after_results_simp
  first | done | rfl

/-! ## From the first product to the second -/

/-- The second product's left operand: layer 1 of the network over the first product's result, narrowed. -/
theorem entry1_lhs (c : Dev nD) : W7 m ρ c (Proc.devRef .tc main_v50) =
    truncf .bf16 (Cert.Gcn.relu256 (Cert.Gcn.agg256 (W4 m ρ c (Proc.devRef .tc main_v5)) (W4 m ρ c (Proc.devRef .tc main_v6)) (W4 m ρ c (Proc.devRef .tc main_v29))
      (W4 m ρ c (Proc.devRef .tc main_v32)) (W4 m ρ c (Proc.devRef .tc main_arg3)))) bitsLt_bf16_f32 := by
  dsimp only [W7, W6, W5, hostOps1_2, hostOps1_1, hostOps1]
  after_results_simp
  first | done | rfl

/-- The second product's right operand: the second weight matrix, narrowed. -/
theorem entry1_rhs (c : Dev nD) : W7 m ρ c (Proc.devRef .tc main_v51) = truncf .bf16 (W4 m ρ c (Proc.devRef .tc main_arg4)) bitsLt_bf16_f32 := by
  dsimp only [W7, W6, W5, hostOps1_2, hostOps1_1, hostOps1]
  after_results_simp
  first | done | rfl

theorem carry1_v5 (c : Dev nD) : W7 m ρ c (Proc.devRef .tc main_v5) = W4 m ρ c (Proc.devRef .tc main_v5) := by
  dsimp only [W7, W6, W5, hostOps1_2, hostOps1_1, hostOps1]
  after_results_simp
  first | done | rfl

theorem carry1_v6 (c : Dev nD) : W7 m ρ c (Proc.devRef .tc main_v6) = W4 m ρ c (Proc.devRef .tc main_v6) := by
  dsimp only [W7, W6, W5, hostOps1_2, hostOps1_1, hostOps1]
  after_results_simp
  first | done | rfl

theorem carry1_v29 (c : Dev nD) : W7 m ρ c (Proc.devRef .tc main_v29) = W4 m ρ c (Proc.devRef .tc main_v29) := by
  dsimp only [W7, W6, W5, hostOps1_2, hostOps1_1, hostOps1]
  after_results_simp
  first | done | rfl

theorem carry1_arg5 (c : Dev nD) : W7 m ρ c (Proc.devRef .tc main_arg5) = W4 m ρ c (Proc.devRef .tc main_arg5) := by
  dsimp only [W7, W6, W5, hostOps1_2, hostOps1_1, hostOps1]
  after_results_simp
  first | done | rfl

theorem carry1_arg6 (c : Dev nD) : W7 m ρ c (Proc.devRef .tc main_arg6) = W4 m ρ c (Proc.devRef .tc main_arg6) := by
  dsimp only [W7, W6, W5, hostOps1_2, hostOps1_1, hostOps1]
  after_results_simp
  first | done | rfl

theorem carry1_arg7 (c : Dev nD) : W7 m ρ c (Proc.devRef .tc main_arg7) = W4 m ρ c (Proc.devRef .tc main_arg7) := by
  dsimp only [W7, W6, W5, hostOps1_2, hostOps1_1, hostOps1]
  after_results_simp
  first | done | rfl

/-! ## From the second product to the third -/

/-- The third product's left operand: layer 2 over the second product's result, narrowed. -/
theorem entry2_lhs (c : Dev nD) : W11 m ρ c (Proc.devRef .tc main_v70) =
    truncf .bf16 (Cert.Gcn.relu256 (Cert.Gcn.agg256 (W8 m ρ c (Proc.devRef .tc main_v5)) (W8 m ρ c (Proc.devRef .tc main_v6)) (W8 m ρ c (Proc.devRef .tc main_v29))
      (W8 m ρ c (Proc.devRef .tc main_v52)) (W8 m ρ c (Proc.devRef .tc main_arg5)))) bitsLt_bf16_f32 := by
  dsimp only [W11, W10, W9, hostOps2_2, hostOps2_1, hostOps2]
  after_results_simp
  first | done | rfl

/-- The third product's right operand: the third weight matrix, narrowed. -/
theorem entry2_rhs (c : Dev nD) : W11 m ρ c (Proc.devRef .tc main_v71) = truncf .bf16 (W8 m ρ c (Proc.devRef .tc main_arg6)) bitsLt_bf16_f32 := by
  dsimp only [W11, W10, W9, hostOps2_2, hostOps2_1, hostOps2]
  after_results_simp
  first | done | rfl

theorem carry2_v5 (c : Dev nD) : W11 m ρ c (Proc.devRef .tc main_v5) = W8 m ρ c (Proc.devRef .tc main_v5) := by
  dsimp only [W11, W10, W9, hostOps2_2, hostOps2_1, hostOps2]
  after_results_simp
  first | done | rfl

theorem carry2_v6 (c : Dev nD) : W11 m ρ c (Proc.devRef .tc main_v6) = W8 m ρ c (Proc.devRef .tc main_v6) := by
  dsimp only [W11, W10, W9, hostOps2_2, hostOps2_1, hostOps2]
  after_results_simp
  first | done | rfl

theorem carry2_v29 (c : Dev nD) : W11 m ρ c (Proc.devRef .tc main_v29) = W8 m ρ c (Proc.devRef .tc main_v29) := by
  dsimp only [W11, W10, W9, hostOps2_2, hostOps2_1, hostOps2]
  after_results_simp
  first | done | rfl

theorem carry2_arg7 (c : Dev nD) : W11 m ρ c (Proc.devRef .tc main_arg7) = W8 m ρ c (Proc.devRef .tc main_arg7) := by
  dsimp only [W11, W10, W9, hostOps2_2, hostOps2_1, hostOps2]
  after_results_simp
  first | done | rfl

/-! ## After the third product -/

/-- The result: the last layer over the third product's result. -/
theorem result_eq (c : Dev nD) : W13 m ρ c (Proc.devRef .tc main_v88) =
    Cert.Gcn.agg64 (W12 m ρ c (Proc.devRef .tc main_v5)) (W12 m ρ c (Proc.devRef .tc main_v6)) (W12 m ρ c (Proc.devRef .tc main_v29))
      (W12 m ρ c (Proc.devRef .tc main_v72)) (W12 m ρ c (Proc.devRef .tc main_arg7)) := by
  dsimp only [W13, hostOps3]
  after_results_simp
  first | done | rfl

end Cert.KernelIdeal.HostValue

end
-- ==== Proof.MatmulBlock.lean ====
/- The kernel's block products read at an index. Each of the three launches multiplies a [5000, K] block by the whole
   [K, N] right operand into a zero accumulator; at the extended reals the element at (p, q) is the plain sum
   over k of left(p, k) * right(k, q). -/
import proofs.«138306_j10333691314775_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.SL.Sem
open Idealize.ShloMosaic.ValueIdx

/-- The block product of launch 0, read at row `p` and column `q` of the block: the body casts each loaded block to its own
    shape (the identity) and multiplies into a zero accumulator, so the element is the sum over the 512 contraction
    positions `k` of the left block at `(p, k)` times the right block at `(k, q)`. The dimension numbers contract axis 1 of the
    left operand with axis 0 of the right one and have no batch axis, so the operand indices at `(p, q)` and `k` are
    `(p, k)` and `(k, q)`; the contraction's one-axis index is carried to `Fin 512`. -/
theorem pay0_apply (x0 : FVec Ideal S5000x512 .bf16) (x1 : FVec Ideal S512x256 .bf16) (p : Fin 5000) (q : Fin 256) :
    k0_pay1 (F := Ideal) x0 x1 (ix2 p q) = ∑ k : Fin 512, x0 (ix2 p k) * x1 (ix2 k q) := by
  unfold k0_pay1
  rw [shapeCast_self, shapeCast_self]
  simp only [matmul]
  rw [Ideal.matmul_constant_zero_apply, ← Equiv.sum_comp (contrEquiv1 dot_S5000x512_S512x256_S5000x256_1_0_0_1_n_n 512 rfl rfl).symm]
  refine Finset.sum_congr rfl fun k _ => ?_
  have hk := contrEquiv1_symm_val dot_S5000x512_S512x256_S5000x256_1_0_0_1_n_n 512 rfl rfl k
  have l0 : ((dot_S5000x512_S512x256_S5000x256_1_0_0_1_n_n).lhsIdx (ix2 p q) ((contrEquiv1 dot_S5000x512_S512x256_S5000x256_1_0_0_1_n_n 512 rfl rfl).symm k) 0).val = p.val := by
    unfold DotDims.lhsIdx
    rw [dif_neg (show ¬(0 : Fin S5000x512.rank) ∈ (dot_S5000x512_S512x256_S5000x256_1_0_0_1_n_n).lhsBatch by decide),
      dif_pos (show (0 : Fin S5000x512.rank) ∈ (dot_S5000x512_S512x256_S5000x256_1_0_0_1_n_n).lhsNonContracting by decide)]
    rfl
  have l1 : ((dot_S5000x512_S512x256_S5000x256_1_0_0_1_n_n).lhsIdx (ix2 p q) ((contrEquiv1 dot_S5000x512_S512x256_S5000x256_1_0_0_1_n_n 512 rfl rfl).symm k) 1).val = k.val :=
    ((dot_S5000x512_S512x256_S5000x256_1_0_0_1_n_n).lhsIdx_val_of_single rfl (ix2 p q) _).trans hk
  have r0 : ((dot_S5000x512_S512x256_S5000x256_1_0_0_1_n_n).rhsIdx (ix2 p q) ((contrEquiv1 dot_S5000x512_S512x256_S5000x256_1_0_0_1_n_n 512 rfl rfl).symm k) 0).val = k.val :=
    ((dot_S5000x512_S512x256_S5000x256_1_0_0_1_n_n).rhsIdx_val_of_single rfl (ix2 p q) _).trans hk
  have r1 : ((dot_S5000x512_S512x256_S5000x256_1_0_0_1_n_n).rhsIdx (ix2 p q) ((contrEquiv1 dot_S5000x512_S512x256_S5000x256_1_0_0_1_n_n 512 rfl rfl).symm k) 1).val = q.val := by
    unfold DotDims.rhsIdx
    rw [dif_neg (show ¬(1 : Fin S512x256.rank) ∈ (dot_S5000x512_S512x256_S5000x256_1_0_0_1_n_n).rhsBatch by decide),
      dif_pos (show (1 : Fin S512x256.rank) ∈ (dot_S5000x512_S512x256_S5000x256_1_0_0_1_n_n).rhsNonContracting by decide)]
    rfl
  have el : (dot_S5000x512_S512x256_S5000x256_1_0_0_1_n_n).lhsIdx (ix2 p q) ((contrEquiv1 dot_S5000x512_S512x256_S5000x256_1_0_0_1_n_n 512 rfl rfl).symm k) = ix2 p k :=
    funext fun a => Fin.ext (by
      match a with
      | ⟨0, _⟩ => exact l0
      | ⟨1, _⟩ => exact l1)
  have er : (dot_S5000x512_S512x256_S5000x256_1_0_0_1_n_n).rhsIdx (ix2 p q) ((contrEquiv1 dot_S5000x512_S512x256_S5000x256_1_0_0_1_n_n 512 rfl rfl).symm k) = ix2 k q :=
    funext fun a => Fin.ext (by
      match a with
      | ⟨0, _⟩ => exact r0
      | ⟨1, _⟩ => exact r1)
  rw [el, er]

/-- The block product of launch 1, read at row `p` and column `q` of the block: the body casts each loaded block to its own
    shape (the identity) and multiplies into a zero accumulator, so the element is the sum over the 256 contraction
    positions `k` of the left block at `(p, k)` times the right block at `(k, q)`. The dimension numbers contract axis 1 of the
    left operand with axis 0 of the right one and have no batch axis, so the operand indices at `(p, q)` and `k` are
    `(p, k)` and `(k, q)`; the contraction's one-axis index is carried to `Fin 256`. -/
theorem pay1_apply (x0 : FVec Ideal S5000x256 .bf16) (x1 : FVec Ideal S256x256 .bf16) (p : Fin 5000) (q : Fin 256) :
    k1_pay1 (F := Ideal) x0 x1 (ix2 p q) = ∑ k : Fin 256, x0 (ix2 p k) * x1 (ix2 k q) := by
  unfold k1_pay1
  rw [shapeCast_self, shapeCast_self]
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have l0 : ((dot_S5000x256_S256x256_S5000x256_1_0_0_1_n_n).lhsIdx (ix2 p q) ((contrEquiv1 dot_S5000x256_S256x256_S5000x256_1_0_0_1_n_n 256 rfl rfl).symm k) 0).val = p.val := by
    unfold DotDims.lhsIdx
    rw [dif_neg (show ¬(0 : Fin S5000x256.rank) ∈ (dot_S5000x256_S256x256_S5000x256_1_0_0_1_n_n).lhsBatch by decide),
      dif_pos (show (0 : Fin S5000x256.rank) ∈ (dot_S5000x256_S256x256_S5000x256_1_0_0_1_n_n).lhsNonContracting by decide)]
    rfl
  have l1 : ((dot_S5000x256_S256x256_S5000x256_1_0_0_1_n_n).lhsIdx (ix2 p q) ((contrEquiv1 dot_S5000x256_S256x256_S5000x256_1_0_0_1_n_n 256 rfl rfl).symm k) 1).val = k.val :=
    ((dot_S5000x256_S256x256_S5000x256_1_0_0_1_n_n).lhsIdx_val_of_single rfl (ix2 p q) _).trans hk
  have r0 : ((dot_S5000x256_S256x256_S5000x256_1_0_0_1_n_n).rhsIdx (ix2 p q) ((contrEquiv1 dot_S5000x256_S256x256_S5000x256_1_0_0_1_n_n 256 rfl rfl).symm k) 0).val = k.val :=
    ((dot_S5000x256_S256x256_S5000x256_1_0_0_1_n_n).rhsIdx_val_of_single rfl (ix2 p q) _).trans hk
  have r1 : ((dot_S5000x256_S256x256_S5000x256_1_0_0_1_n_n).rhsIdx (ix2 p q) ((contrEquiv1 dot_S5000x256_S256x256_S5000x256_1_0_0_1_n_n 256 rfl rfl).symm k) 1).val = q.val := by
    unfold DotDims.rhsIdx
    rw [dif_neg (show ¬(1 : Fin S256x256.rank) ∈ (dot_S5000x256_S256x256_S5000x256_1_0_0_1_n_n).rhsBatch by decide),
      dif_pos (show (1 : Fin S256x256.rank) ∈ (dot_S5000x256_S256x256_S5000x256_1_0_0_1_n_n).rhsNonContracting by decide)]
    rfl
  have el : (dot_S5000x256_S256x256_S5000x256_1_0_0_1_n_n).lhsIdx (ix2 p q) ((contrEquiv1 dot_S5000x256_S256x256_S5000x256_1_0_0_1_n_n 256 rfl rfl).symm k) = ix2 p k :=
    funext fun a => Fin.ext (by
      match a with
      | ⟨0, _⟩ => exact l0
      | ⟨1, _⟩ => exact l1)
  have er : (dot_S5000x256_S256x256_S5000x256_1_0_0_1_n_n).rhsIdx (ix2 p q) ((contrEquiv1 dot_S5000x256_S256x256_S5000x256_1_0_0_1_n_n 256 rfl rfl).symm k) = ix2 k q :=
    funext fun a => Fin.ext (by
      match a with
      | ⟨0, _⟩ => exact r0
      | ⟨1, _⟩ => exact r1)
  rw [el, er]

/-- The block product of launch 2, read at row `p` and column `q` of the block: the body casts each loaded block to its own
    shape (the identity) and multiplies into a zero accumulator, so the element is the sum over the 256 contraction
    positions `k` of the left block at `(p, k)` times the right block at `(k, q)`. The dimension numbers contract axis 1 of the
    left operand with axis 0 of the right one and have no batch axis, so the operand indices at `(p, q)` and `k` are
    `(p, k)` and `(k, q)`; the contraction's one-axis index is carried to `Fin 256`. -/
theorem pay2_apply (x0 : FVec Ideal S5000x256 .bf16) (x1 : FVec Ideal S256x64 .bf16) (p : Fin 5000) (q : Fin 64) :
    k2_pay1 (F := Ideal) x0 x1 (ix2 p q) = ∑ k : Fin 256, x0 (ix2 p k) * x1 (ix2 k q) := by
  unfold k2_pay1
  rw [shapeCast_self, shapeCast_self]
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have l0 : ((dot_S5000x256_S256x64_S5000x64_1_0_0_1_n_n).lhsIdx (ix2 p q) ((contrEquiv1 dot_S5000x256_S256x64_S5000x64_1_0_0_1_n_n 256 rfl rfl).symm k) 0).val = p.val := by
    unfold DotDims.lhsIdx
    rw [dif_neg (show ¬(0 : Fin S5000x256.rank) ∈ (dot_S5000x256_S256x64_S5000x64_1_0_0_1_n_n).lhsBatch by decide),
      dif_pos (show (0 : Fin S5000x256.rank) ∈ (dot_S5000x256_S256x64_S5000x64_1_0_0_1_n_n).lhsNonContracting by decide)]
    rfl
  have l1 : ((dot_S5000x256_S256x64_S5000x64_1_0_0_1_n_n).lhsIdx (ix2 p q) ((contrEquiv1 dot_S5000x256_S256x64_S5000x64_1_0_0_1_n_n 256 rfl rfl).symm k) 1).val = k.val :=
    ((dot_S5000x256_S256x64_S5000x64_1_0_0_1_n_n).lhsIdx_val_of_single rfl (ix2 p q) _).trans hk
  have r0 : ((dot_S5000x256_S256x64_S5000x64_1_0_0_1_n_n).rhsIdx (ix2 p q) ((contrEquiv1 dot_S5000x256_S256x64_S5000x64_1_0_0_1_n_n 256 rfl rfl).symm k) 0).val = k.val :=
    ((dot_S5000x256_S256x64_S5000x64_1_0_0_1_n_n).rhsIdx_val_of_single rfl (ix2 p q) _).trans hk
  have r1 : ((dot_S5000x256_S256x64_S5000x64_1_0_0_1_n_n).rhsIdx (ix2 p q) ((contrEquiv1 dot_S5000x256_S256x64_S5000x64_1_0_0_1_n_n 256 rfl rfl).symm k) 1).val = q.val := by
    unfold DotDims.rhsIdx
    rw [dif_neg (show ¬(1 : Fin S256x64.rank) ∈ (dot_S5000x256_S256x64_S5000x64_1_0_0_1_n_n).rhsBatch by decide),
      dif_pos (show (1 : Fin S256x64.rank) ∈ (dot_S5000x256_S256x64_S5000x64_1_0_0_1_n_n).rhsNonContracting by decide)]
    rfl
  have el : (dot_S5000x256_S256x64_S5000x64_1_0_0_1_n_n).lhsIdx (ix2 p q) ((contrEquiv1 dot_S5000x256_S256x64_S5000x64_1_0_0_1_n_n 256 rfl rfl).symm k) = ix2 p k :=
    funext fun a => Fin.ext (by
      match a with
      | ⟨0, _⟩ => exact l0
      | ⟨1, _⟩ => exact l1)
  have er : (dot_S5000x256_S256x64_S5000x64_1_0_0_1_n_n).rhsIdx (ix2 p q) ((contrEquiv1 dot_S5000x256_S256x64_S5000x64_1_0_0_1_n_n 256 rfl rfl).symm k) = ix2 k q :=
    funext fun a => Fin.ext (by
      match a with
      | ⟨0, _⟩ => exact r0
      | ⟨1, _⟩ => exact r1)
  rw [el, er]

end Cert.KernelIdeal.RegionValue

end
-- ==== Proof.MatmulWhole.lean ====
/- The reference's three matrix products read at an index: at the extended reals the host's dot_general of a
   [50000, K] array and a [K, N] array is, at (p, q), the plain sum over k of left(p, k) * right(k, q). -/
import proofs.«138306_j10333691314775_1_alg».proof.Proof.Gen.ReferenceIdeal
import Idealize.ShloMosaic.Lib.ValueIdx
import Idealize.ShloMosaic.PureOps.Ideal.Laws

noncomputable section

namespace Cert.KernelIdeal.RegionValue

open Cert.ReferenceIdeal Idealize.ShloMosaic Idealize.SL.Sem
open Idealize.ShloMosaic.ValueIdx

/-- The product of the whole arrays of layer 0, read at row `p` and column `q`: the host's `dot_general` at the
    extended reals is the sum over the 512 contraction positions `k` of the left array at `(p, k)` times the right
    array at `(k, q)` (same dimension numbers as the block product: axis 1 against axis 0, no batch axis). -/
theorem whole0_apply (X : FVec Ideal S50000x512 .f32) (W : FVec Ideal S512x256 .f32) (p : Fin 50000) (q : Fin 256) :
    Host.dotGeneral (F := Ideal) (φ₁ := .f32) (φ₂ := .f32) dot_S50000x512_S512x256_S50000x256_1_0_0_1_n_n none X W (ix2 p q)
      = ∑ k : Fin 512, X (ix2 p k) * W (ix2 k q) := by
  simp only [Host.dotGeneral]
  rw [Ideal.dotGeneral_apply, ← Equiv.sum_comp (contrEquiv1 dot_S50000x512_S512x256_S50000x256_1_0_0_1_n_n 512 rfl rfl).symm]
  refine Finset.sum_congr rfl fun k _ => ?_
  have hk := contrEquiv1_symm_val dot_S50000x512_S512x256_S50000x256_1_0_0_1_n_n 512 rfl rfl k
  have l0 : ((dot_S50000x512_S512x256_S50000x256_1_0_0_1_n_n).lhsIdx (ix2 p q) ((contrEquiv1 dot_S50000x512_S512x256_S50000x256_1_0_0_1_n_n 512 rfl rfl).symm k) 0).val = p.val := by
    unfold DotDims.lhsIdx
    rw [dif_neg (show ¬(0 : Fin S50000x512.rank) ∈ (dot_S50000x512_S512x256_S50000x256_1_0_0_1_n_n).lhsBatch by decide),
      dif_pos (show (0 : Fin S50000x512.rank) ∈ (dot_S50000x512_S512x256_S50000x256_1_0_0_1_n_n).lhsNonContracting by decide)]
    rfl
  have l1 : ((dot_S50000x512_S512x256_S50000x256_1_0_0_1_n_n).lhsIdx (ix2 p q) ((contrEquiv1 dot_S50000x512_S512x256_S50000x256_1_0_0_1_n_n 512 rfl rfl).symm k) 1).val = k.val :=
    ((dot_S50000x512_S512x256_S50000x256_1_0_0_1_n_n).lhsIdx_val_of_single rfl (ix2 p q) _).trans hk
  have r0 : ((dot_S50000x512_S512x256_S50000x256_1_0_0_1_n_n).rhsIdx (ix2 p q) ((contrEquiv1 dot_S50000x512_S512x256_S50000x256_1_0_0_1_n_n 512 rfl rfl).symm k) 0).val = k.val :=
    ((dot_S50000x512_S512x256_S50000x256_1_0_0_1_n_n).rhsIdx_val_of_single rfl (ix2 p q) _).trans hk
  have r1 : ((dot_S50000x512_S512x256_S50000x256_1_0_0_1_n_n).rhsIdx (ix2 p q) ((contrEquiv1 dot_S50000x512_S512x256_S50000x256_1_0_0_1_n_n 512 rfl rfl).symm k) 1).val = q.val := by
    unfold DotDims.rhsIdx
    rw [dif_neg (show ¬(1 : Fin S512x256.rank) ∈ (dot_S50000x512_S512x256_S50000x256_1_0_0_1_n_n).rhsBatch by decide),
      dif_pos (show (1 : Fin S512x256.rank) ∈ (dot_S50000x512_S512x256_S50000x256_1_0_0_1_n_n).rhsNonContracting by decide)]
    rfl
  have el : (dot_S50000x512_S512x256_S50000x256_1_0_0_1_n_n).lhsIdx (ix2 p q) ((contrEquiv1 dot_S50000x512_S512x256_S50000x256_1_0_0_1_n_n 512 rfl rfl).symm k) = ix2 p k :=
    funext fun a => Fin.ext (by
      match a with
      | ⟨0, _⟩ => exact l0
      | ⟨1, _⟩ => exact l1)
  have er : (dot_S50000x512_S512x256_S50000x256_1_0_0_1_n_n).rhsIdx (ix2 p q) ((contrEquiv1 dot_S50000x512_S512x256_S50000x256_1_0_0_1_n_n 512 rfl rfl).symm k) = ix2 k q :=
    funext fun a => Fin.ext (by
      match a with
      | ⟨0, _⟩ => exact r0
      | ⟨1, _⟩ => exact r1)
  rw [el, er]

/-- The product of the whole arrays of layer 1, read at row `p` and column `q`: the host's `dot_general` at the
    extended reals is the sum over the 256 contraction positions `k` of the left array at `(p, k)` times the right
    array at `(k, q)` (same dimension numbers as the block product: axis 1 against axis 0, no batch axis). -/
theorem whole1_apply (X : FVec Ideal S50000x256 .f32) (W : FVec Ideal S256x256 .f32) (p : Fin 50000) (q : Fin 256) :
    Host.dotGeneral (F := Ideal) (φ₁ := .f32) (φ₂ := .f32) dot_S50000x256_S256x256_S50000x256_1_0_0_1_n_n none X W (ix2 p q)
      = ∑ k : Fin 256, X (ix2 p k) * W (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have l0 : ((dot_S50000x256_S256x256_S50000x256_1_0_0_1_n_n).lhsIdx (ix2 p q) ((contrEquiv1 dot_S50000x256_S256x256_S50000x256_1_0_0_1_n_n 256 rfl rfl).symm k) 0).val = p.val := by
    unfold DotDims.lhsIdx
    rw [dif_neg (show ¬(0 : Fin S50000x256.rank) ∈ (dot_S50000x256_S256x256_S50000x256_1_0_0_1_n_n).lhsBatch by decide),
      dif_pos (show (0 : Fin S50000x256.rank) ∈ (dot_S50000x256_S256x256_S50000x256_1_0_0_1_n_n).lhsNonContracting by decide)]
    rfl
  have l1 : ((dot_S50000x256_S256x256_S50000x256_1_0_0_1_n_n).lhsIdx (ix2 p q) ((contrEquiv1 dot_S50000x256_S256x256_S50000x256_1_0_0_1_n_n 256 rfl rfl).symm k) 1).val = k.val :=
    ((dot_S50000x256_S256x256_S50000x256_1_0_0_1_n_n).lhsIdx_val_of_single rfl (ix2 p q) _).trans hk
  have r0 : ((dot_S50000x256_S256x256_S50000x256_1_0_0_1_n_n).rhsIdx (ix2 p q) ((contrEquiv1 dot_S50000x256_S256x256_S50000x256_1_0_0_1_n_n 256 rfl rfl).symm k) 0).val = k.val :=
    ((dot_S50000x256_S256x256_S50000x256_1_0_0_1_n_n).rhsIdx_val_of_single rfl (ix2 p q) _).trans hk
  have r1 : ((dot_S50000x256_S256x256_S50000x256_1_0_0_1_n_n).rhsIdx (ix2 p q) ((contrEquiv1 dot_S50000x256_S256x256_S50000x256_1_0_0_1_n_n 256 rfl rfl).symm k) 1).val = q.val := by
    unfold DotDims.rhsIdx
    rw [dif_neg (show ¬(1 : Fin S256x256.rank) ∈ (dot_S50000x256_S256x256_S50000x256_1_0_0_1_n_n).rhsBatch by decide),
      dif_pos (show (1 : Fin S256x256.rank) ∈ (dot_S50000x256_S256x256_S50000x256_1_0_0_1_n_n).rhsNonContracting by decide)]
    rfl
  have el : (dot_S50000x256_S256x256_S50000x256_1_0_0_1_n_n).lhsIdx (ix2 p q) ((contrEquiv1 dot_S50000x256_S256x256_S50000x256_1_0_0_1_n_n 256 rfl rfl).symm k) = ix2 p k :=
    funext fun a => Fin.ext (by
      match a with
      | ⟨0, _⟩ => exact l0
      | ⟨1, _⟩ => exact l1)
  have er : (dot_S50000x256_S256x256_S50000x256_1_0_0_1_n_n).rhsIdx (ix2 p q) ((contrEquiv1 dot_S50000x256_S256x256_S50000x256_1_0_0_1_n_n 256 rfl rfl).symm k) = ix2 k q :=
    funext fun a => Fin.ext (by
      match a with
      | ⟨0, _⟩ => exact r0
      | ⟨1, _⟩ => exact r1)
  rw [el, er]

/-- The product of the whole arrays of layer 2, read at row `p` and column `q`: the host's `dot_general` at the
    extended reals is the sum over the 256 contraction positions `k` of the left array at `(p, k)` times the right
    array at `(k, q)` (same dimension numbers as the block product: axis 1 against axis 0, no batch axis). -/
theorem whole2_apply (X : FVec Ideal S50000x256 .f32) (W : FVec Ideal S256x64 .f32) (p : Fin 50000) (q : Fin 64) :
    Host.dotGeneral (F := Ideal) (φ₁ := .f32) (φ₂ := .f32) dot_S50000x256_S256x64_S50000x64_1_0_0_1_n_n none X W (ix2 p q)
      = ∑ k : Fin 256, X (ix2 p k) * W (ix2 k q) := by
  simp only [Host.dotGeneral]
  rw [Ideal.dotGeneral_apply, ← Equiv.sum_comp (contrEquiv1 dot_S50000x256_S256x64_S50000x64_1_0_0_1_n_n 256 rfl rfl).symm]
  refine Finset.sum_congr rfl fun k _ => ?_
  have hk := contrEquiv1_symm_val dot_S50000x256_S256x64_S50000x64_1_0_0_1_n_n 256 rfl rfl k
  have l0 : ((dot_S50000x256_S256x64_S50000x64_1_0_0_1_n_n).lhsIdx (ix2 p q) ((contrEquiv1 dot_S50000x256_S256x64_S50000x64_1_0_0_1_n_n 256 rfl rfl).symm k) 0).val = p.val := by
    unfold DotDims.lhsIdx
    rw [dif_neg (show ¬(0 : Fin S50000x256.rank) ∈ (dot_S50000x256_S256x64_S50000x64_1_0_0_1_n_n).lhsBatch by decide),
      dif_pos (show (0 : Fin S50000x256.rank) ∈ (dot_S50000x256_S256x64_S50000x64_1_0_0_1_n_n).lhsNonContracting by decide)]
    rfl
  have l1 : ((dot_S50000x256_S256x64_S50000x64_1_0_0_1_n_n).lhsIdx (ix2 p q) ((contrEquiv1 dot_S50000x256_S256x64_S50000x64_1_0_0_1_n_n 256 rfl rfl).symm k) 1).val = k.val :=
    ((dot_S50000x256_S256x64_S50000x64_1_0_0_1_n_n).lhsIdx_val_of_single rfl (ix2 p q) _).trans hk
  have r0 : ((dot_S50000x256_S256x64_S50000x64_1_0_0_1_n_n).rhsIdx (ix2 p q) ((contrEquiv1 dot_S50000x256_S256x64_S50000x64_1_0_0_1_n_n 256 rfl rfl).symm k) 0).val = k.val :=
    ((dot_S50000x256_S256x64_S50000x64_1_0_0_1_n_n).rhsIdx_val_of_single rfl (ix2 p q) _).trans hk
  have r1 : ((dot_S50000x256_S256x64_S50000x64_1_0_0_1_n_n).rhsIdx (ix2 p q) ((contrEquiv1 dot_S50000x256_S256x64_S50000x64_1_0_0_1_n_n 256 rfl rfl).symm k) 1).val = q.val := by
    unfold DotDims.rhsIdx
    rw [dif_neg (show ¬(1 : Fin S256x64.rank) ∈ (dot_S50000x256_S256x64_S50000x64_1_0_0_1_n_n).rhsBatch by decide),
      dif_pos (show (1 : Fin S256x64.rank) ∈ (dot_S50000x256_S256x64_S50000x64_1_0_0_1_n_n).rhsNonContracting by decide)]
    rfl
  have el : (dot_S50000x256_S256x64_S50000x64_1_0_0_1_n_n).lhsIdx (ix2 p q) ((contrEquiv1 dot_S50000x256_S256x64_S50000x64_1_0_0_1_n_n 256 rfl rfl).symm k) = ix2 p k :=
    funext fun a => Fin.ext (by
      match a with
      | ⟨0, _⟩ => exact l0
      | ⟨1, _⟩ => exact l1)
  have er : (dot_S50000x256_S256x64_S50000x64_1_0_0_1_n_n).rhsIdx (ix2 p q) ((contrEquiv1 dot_S50000x256_S256x64_S50000x64_1_0_0_1_n_n 256 rfl rfl).symm k) = ix2 k q :=
    funext fun a => Fin.ext (by
      match a with
      | ⟨0, _⟩ => exact r0
      | ⟨1, _⟩ => exact r1)
  rw [el, er]

end Cert.KernelIdeal.RegionValue

end
-- ==== Proof.Region0.lean ====
/- Launch 0 of the kernel, from its blocks to the whole array. The grid has 10 points; point t multiplies rows
   [5000 t, 5000 t + 5000) of the [50000, 512] left operand by the whole [512, 256] right operand and writes rows
   [5000 t, 5000 t + 5000) of the [50000, 256] output. The operands are the narrowed copies of two f32 arrays X and W, and
   at the extended reals narrowing is the identity; so what point t writes back is block t of the product X · W, the
   ten blocks tile the output, and the output array after the launch is X · W. -/
import proofs.«138306_j10333691314775_1_alg».proof.Proof.Gen.KernelIdeal.Frame
import proofs.«138306_j10333691314775_1_alg».proof.Proof.Gen.KernelIdeal.Points
import proofs.«138306_j10333691314775_1_alg».proof.Proof.MatmulBlock
import proofs.«138306_j10333691314775_1_alg».proof.Proof.MatmulWhole
import proofs.«138306_j10333691314775_1_alg».proof.Proof.Products
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The body's loads and its store start at offset (0, 0). -/
theorem origin0 : (![0, 0] : Fin 2 → Nat) = fun _ => 0 := funext fun a => by fin_cases a <;> rfl

/-- The windows' block-index maps over the 10 grid points: the left operand's and the output's row-block index is the point's
    number, and every other block index is 0 (the right operand is one block, and no window is split along columns). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the un-narrowed arrays: at row `p`, column `q` of the block
    both sides are the sum over `k` of `X (5000 t + p, k) * W (k, q)`. An element of a block sits in its array at block
    index times block size plus its coordinate in the block. -/
theorem written0 (V : (c : Dev nD) → (b : Ref sig .tc) → Buf (Elt Ideal) ((c : Thread nD τ).loc b)) (c : Dev nD)
    (X : (⟨S50000x512, .f32⟩ : BufTy).Contents (Elt Ideal)) (W : (⟨S512x256, .f32⟩ : BufTy).Contents (Elt Ideal))
    (hX : V c (Pipeline.arrRef spec0 0) = truncf (F := Ideal) .bf16 X bitsLt_bf16_f32)
    (hW : V c (Pipeline.arrRef spec0 1) = truncf (F := Ideal) .bf16 W bitsLt_bf16_f32) (t : Fin cfg0.N) :
    (dat0 (F := Ideal) V c).flushed 2 t = ((cfg0.win 2).blk t).view.read (Elt Ideal) (Host.dotGeneral (F := Ideal) (φ₁ := .f32) (φ₂ := .f32) Cert.ReferenceIdeal.dot_S50000x512_S512x256_S50000x256_1_0_0_1_n_n none X W) := by
  show (cfg0.win 2).cut (grid0.coords t) ((dat0 (F := Ideal) V c).after 2 t) = _
  rw [after0_2]
  unfold out0_2
  rw [View.canon_unit_zero origin0]
  simp only [View.ld_unit_zero (S := S5000x512) origin0, View.ld_unit_zero (S := S512x256) origin0]
  obtain ⟨e00, e01, e10, e11, e20, e21⟩ := blockIndex0 t
  have ht : t.val < 10 := lt_of_lt_of_eq t.isLt N_0
  refine funext fun (j : S5000x256.Idx) => ?_
  obtain ⟨p, q, rfl⟩ : ∃ (p : Fin 5000) (q : Fin 256), j = ix2 p q := ⟨j 0, j 1, eq_ix2 j⟩
  have hp : p.val < 5000 := p.isLt
  have hrow : t.val * 5000 + p.val < 50000 := by omega
  show k0_pay1 (F := Ideal) (iblk0 V c 0 t) (iblk0 V c 1 t) (ix2 p q)
    = (Host.dotGeneral (F := Ideal) (φ₁ := .f32) (φ₂ := .f32) Cert.ReferenceIdeal.dot_S50000x512_S512x256_S50000x256_1_0_0_1_n_n none X W) (((cfg0.win 2).blk t).view.emb (ix2 p q))
  have hout : ((cfg0.win 2).blk t).view.emb (ix2 p q) = ix2 (⟨t.val * 5000 + p.val, hrow⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  rw [hout, whole0_apply, pay0_apply]
  refine Finset.sum_congr rfl fun k _ => ?_
  have hl : ((cfg0.win 0).blk t).view.emb (ix2 p k) = ix2 (⟨t.val * 5000 + p.val, hrow⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 512 + 1 * k.val = k.val; omega
  have hr : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  have h0 : iblk0 V c 0 t (ix2 p k) = X (ix2 (⟨t.val * 5000 + p.val, hrow⟩ : Fin 50000) k) := by
    show V c (Pipeline.arrRef spec0 0) (((cfg0.win 0).blk t).view.emb (ix2 p k)) = _
    rw [hl]
    exact congrFun hX _
  have h1 : iblk0 V c 1 t (ix2 k q) = W (ix2 k q) := by
    show V c (Pipeline.arrRef spec0 1) (((cfg0.win 1).blk t).view.emb (ix2 k q)) = _
    rw [hr]
    exact congrFun hW _
  rw [h0, h1]

/-- An index of the output array is in point `t`'s block iff each coordinate is in the block's range on its axis. -/
theorem inBlock0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten blocks tile the output: row `r` is in the block of point `r / 5000`, and every point writes back. -/
theorem tiled0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, e20, e21⟩ := blockIndex0 t
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE OUTPUT ARRAY after launch 0 is the product of the un-narrowed arrays (`Cert.Gcn.prod1` abbreviates that
    `dot_general`): every point writes back block `t` of it, and the blocks tile the array. -/
theorem region0_out (V : (c : Dev nD) → (b : Ref sig .tc) → Buf (Elt Ideal) ((c : Thread nD τ).loc b)) (c : Dev nD)
    (X : (⟨S50000x512, .f32⟩ : BufTy).Contents (Elt Ideal)) (W : (⟨S512x256, .f32⟩ : BufTy).Contents (Elt Ideal))
    (hX : V c (Pipeline.arrRef spec0 0) = truncf (F := Ideal) .bf16 X bitsLt_bf16_f32)
    (hW : V c (Pipeline.arrRef spec0 1) = truncf (F := Ideal) .bf16 W bitsLt_bf16_f32) :
    (dat0 (F := Ideal) V c).arrAt 2 cfg0.N = Cert.Gcn.prod1 (F := Ideal) X W :=
  (dat0 (F := Ideal) V c).arrAt_eq_of_cover 2 _ (fun t _ => written0 V c X W hX hW t) tiled0

end Cert.KernelIdeal.RegionValue

end
-- ==== Proof.Region1.lean ====
/- Launch 1 of the kernel, from its blocks to the whole array. The grid has 10 points; point t multiplies rows
   [5000 t, 5000 t + 5000) of the [50000, 256] left operand by the whole [256, 256] right operand and writes rows
   [5000 t, 5000 t + 5000) of the [50000, 256] output. The operands are the narrowed copies of two f32 arrays X and W, and
   at the extended reals narrowing is the identity; so what point t writes back is block t of the product X · W, the
   ten blocks tile the output, and the output array after the launch is X · W. -/
import proofs.«138306_j10333691314775_1_alg».proof.Proof.Gen.KernelIdeal.Frame
import proofs.«138306_j10333691314775_1_alg».proof.Proof.Gen.KernelIdeal.Points
import proofs.«138306_j10333691314775_1_alg».proof.Proof.MatmulBlock
import proofs.«138306_j10333691314775_1_alg».proof.Proof.MatmulWhole
import proofs.«138306_j10333691314775_1_alg».proof.Proof.Products
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The body's loads and its store start at offset (0, 0). -/
theorem origin1 : (![0, 0] : Fin 2 → Nat) = fun _ => 0 := funext fun a => by fin_cases a <;> rfl

/-- The windows' block-index maps over the 10 grid points: the left operand's and the output's row-block index is the point's
    number, and every other block index is 0 (the right operand is one block, and no window is split along columns). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the un-narrowed arrays: at row `p`, column `q` of the block
    both sides are the sum over `k` of `X (5000 t + p, k) * W (k, q)`. An element of a block sits in its array at block
    index times block size plus its coordinate in the block. -/
theorem written1 (V : (c : Dev nD) → (b : Ref sig .tc) → Buf (Elt Ideal) ((c : Thread nD τ).loc b)) (c : Dev nD)
    (X : (⟨S50000x256, .f32⟩ : BufTy).Contents (Elt Ideal)) (W : (⟨S256x256, .f32⟩ : BufTy).Contents (Elt Ideal))
    (hX : V c (Pipeline.arrRef spec1 0) = truncf (F := Ideal) .bf16 X bitsLt_bf16_f32)
    (hW : V c (Pipeline.arrRef spec1 1) = truncf (F := Ideal) .bf16 W bitsLt_bf16_f32) (t : Fin cfg1.N) :
    (dat1 (F := Ideal) V c).flushed 2 t = ((cfg1.win 2).blk t).view.read (Elt Ideal) (Host.dotGeneral (F := Ideal) (φ₁ := .f32) (φ₂ := .f32) Cert.ReferenceIdeal.dot_S50000x256_S256x256_S50000x256_1_0_0_1_n_n none X W) := by
  show (cfg1.win 2).cut (grid1.coords t) ((dat1 (F := Ideal) V c).after 2 t) = _
  rw [after1_2]
  unfold out1_2
  rw [View.canon_unit_zero origin1]
  simp only [View.ld_unit_zero (S := S5000x256) origin1, View.ld_unit_zero (S := S256x256) origin1]
  obtain ⟨e00, e01, e10, e11, e20, e21⟩ := blockIndex1 t
  have ht : t.val < 10 := lt_of_lt_of_eq t.isLt N_1
  refine funext fun (j : S5000x256.Idx) => ?_
  obtain ⟨p, q, rfl⟩ : ∃ (p : Fin 5000) (q : Fin 256), j = ix2 p q := ⟨j 0, j 1, eq_ix2 j⟩
  have hp : p.val < 5000 := p.isLt
  have hrow : t.val * 5000 + p.val < 50000 := by omega
  show k1_pay1 (F := Ideal) (iblk1 V c 0 t) (iblk1 V c 1 t) (ix2 p q)
    = (Host.dotGeneral (F := Ideal) (φ₁ := .f32) (φ₂ := .f32) Cert.ReferenceIdeal.dot_S50000x256_S256x256_S50000x256_1_0_0_1_n_n none X W) (((cfg1.win 2).blk t).view.emb (ix2 p q))
  have hout : ((cfg1.win 2).blk t).view.emb (ix2 p q) = ix2 (⟨t.val * 5000 + p.val, hrow⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 256 + 1 * q.val = q.val; omega
  rw [hout, whole1_apply, pay1_apply]
  refine Finset.sum_congr rfl fun k _ => ?_
  have hl : ((cfg1.win 0).blk t).view.emb (ix2 p k) = ix2 (⟨t.val * 5000 + p.val, hrow⟩ : Fin 50000) k := by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have hr : ((cfg1.win 1).blk t).view.emb (ix2 k q) = ix2 k q := by
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  have h0 : iblk1 V c 0 t (ix2 p k) = X (ix2 (⟨t.val * 5000 + p.val, hrow⟩ : Fin 50000) k) := by
    show V c (Pipeline.arrRef spec1 0) (((cfg1.win 0).blk t).view.emb (ix2 p k)) = _
    rw [hl]
    exact congrFun hX _
  have h1 : iblk1 V c 1 t (ix2 k q) = W (ix2 k q) := by
    show V c (Pipeline.arrRef spec1 1) (((cfg1.win 1).blk t).view.emb (ix2 k q)) = _
    rw [hr]
    exact congrFun hW _
  rw [h0, h1]

/-- An index of the output array is in point `t`'s block iff each coordinate is in the block's range on its axis. -/
theorem inBlock1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v52).slice (win1_2.rect t)).set ↔ _
  rw [View.set_slice_whole, Rect.mem_set_unit]
  exact Iff.rfl

/-- The ten blocks tile the output: row `r` is in the block of point `r / 5000`, and every point writes back. -/
theorem tiled1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, e20, e21⟩ := blockIndex1 t
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- THE OUTPUT ARRAY after launch 1 is the product of the un-narrowed arrays (`Cert.Gcn.prod2` abbreviates that
    `dot_general`): every point writes back block `t` of it, and the blocks tile the array. -/
theorem region1_out (V : (c : Dev nD) → (b : Ref sig .tc) → Buf (Elt Ideal) ((c : Thread nD τ).loc b)) (c : Dev nD)
    (X : (⟨S50000x256, .f32⟩ : BufTy).Contents (Elt Ideal)) (W : (⟨S256x256, .f32⟩ : BufTy).Contents (Elt Ideal))
    (hX : V c (Pipeline.arrRef spec1 0) = truncf (F := Ideal) .bf16 X bitsLt_bf16_f32)
    (hW : V c (Pipeline.arrRef spec1 1) = truncf (F := Ideal) .bf16 W bitsLt_bf16_f32) :
    (dat1 (F := Ideal) V c).arrAt 2 cfg1.N = Cert.Gcn.prod2 (F := Ideal) X W :=
  (dat1 (F := Ideal) V c).arrAt_eq_of_cover 2 _ (fun t _ => written1 V c X W hX hW t) tiled1

end Cert.KernelIdeal.RegionValue

end
-- ==== Proof.Region2.lean ====
/- Launch 2 of the kernel, from its blocks to the whole array. The grid has 10 points; point t multiplies rows
   [5000 t, 5000 t + 5000) of the [50000, 256] left operand by the whole [256, 64] right operand and writes rows
   [5000 t, 5000 t + 5000) of the [50000, 64] output. The operands are the narrowed copies of two f32 arrays X and W, and
   at the extended reals narrowing is the identity; so what point t writes back is block t of the product X · W, the
   ten blocks tile the output, and the output array after the launch is X · W. -/
import proofs.«138306_j10333691314775_1_alg».proof.Proof.Gen.KernelIdeal.Frame
import proofs.«138306_j10333691314775_1_alg».proof.Proof.Gen.KernelIdeal.Points
import proofs.«138306_j10333691314775_1_alg».proof.Proof.MatmulBlock
import proofs.«138306_j10333691314775_1_alg».proof.Proof.MatmulWhole
import proofs.«138306_j10333691314775_1_alg».proof.Proof.Products
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The body's loads and its store start at offset (0, 0). -/
theorem origin2 : (![0, 0] : Fin 2 → Nat) = fun _ => 0 := funext fun a => by fin_cases a <;> rfl

/-- The windows' block-index maps over the 10 grid points: the left operand's and the output's row-block index is the point's
    number, and every other block index is 0 (the right operand is one block, and no window is split along columns). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the un-narrowed arrays: at row `p`, column `q` of the block
    both sides are the sum over `k` of `X (5000 t + p, k) * W (k, q)`. An element of a block sits in its array at block
    index times block size plus its coordinate in the block. -/
theorem written2 (V : (c : Dev nD) → (b : Ref sig .tc) → Buf (Elt Ideal) ((c : Thread nD τ).loc b)) (c : Dev nD)
    (X : (⟨S50000x256, .f32⟩ : BufTy).Contents (Elt Ideal)) (W : (⟨S256x64, .f32⟩ : BufTy).Contents (Elt Ideal))
    (hX : V c (Pipeline.arrRef spec2 0) = truncf (F := Ideal) .bf16 X bitsLt_bf16_f32)
    (hW : V c (Pipeline.arrRef spec2 1) = truncf (F := Ideal) .bf16 W bitsLt_bf16_f32) (t : Fin cfg2.N) :
    (dat2 (F := Ideal) V c).flushed 2 t = ((cfg2.win 2).blk t).view.read (Elt Ideal) (Host.dotGeneral (F := Ideal) (φ₁ := .f32) (φ₂ := .f32) Cert.ReferenceIdeal.dot_S50000x256_S256x64_S50000x64_1_0_0_1_n_n none X W) := by
  show (cfg2.win 2).cut (grid2.coords t) ((dat2 (F := Ideal) V c).after 2 t) = _
  rw [after2_2]
  unfold out2_2
  rw [View.canon_unit_zero origin2]
  simp only [View.ld_unit_zero (S := S5000x256) origin2, View.ld_unit_zero (S := S256x64) origin2]
  obtain ⟨e00, e01, e10, e11, e20, e21⟩ := blockIndex2 t
  have ht : t.val < 10 := lt_of_lt_of_eq t.isLt N_2
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hrow : t.val * 5000 + p.val < 50000 := by omega
  show k2_pay1 (F := Ideal) (iblk2 V c 0 t) (iblk2 V c 1 t) (ix2 p q)
    = (Host.dotGeneral (F := Ideal) (φ₁ := .f32) (φ₂ := .f32) Cert.ReferenceIdeal.dot_S50000x256_S256x64_S50000x64_1_0_0_1_n_n none X W) (((cfg2.win 2).blk t).view.emb (ix2 p q))
  have hout : ((cfg2.win 2).blk t).view.emb (ix2 p q) = ix2 (⟨t.val * 5000 + p.val, hrow⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hout, whole2_apply, pay2_apply]
  refine Finset.sum_congr rfl fun k _ => ?_
  have hl : ((cfg2.win 0).blk t).view.emb (ix2 p k) = ix2 (⟨t.val * 5000 + p.val, hrow⟩ : Fin 50000) k := by
    funext a; apply Fin.ext
    match a with
    | ⟨0, _⟩ => show win2_0.index t (0 : Fin 2) * 5000 + 1 * p.val = t.val * 5000 + p.val; omega
    | ⟨1, _⟩ => show win2_0.index t (1 : Fin 2) * 256 + 1 * k.val = k.val; omega
  have hr : ((cfg2.win 1).blk t).view.emb (ix2 k q) = ix2 k q := by
    funext a; apply Fin.ext
    match a with
    | ⟨0, _⟩ => show win2_1.index t (0 : Fin 2) * 256 + 1 * k.val = k.val; omega
    | ⟨1, _⟩ => show win2_1.index t (1 : Fin 2) * 64 + 1 * q.val = q.val; omega
  have h0 : iblk2 V c 0 t (ix2 p k) = X (ix2 (⟨t.val * 5000 + p.val, hrow⟩ : Fin 50000) k) := by
    show V c (Pipeline.arrRef spec2 0) (((cfg2.win 0).blk t).view.emb (ix2 p k)) = _
    rw [hl]
    exact congrFun hX _
  have h1 : iblk2 V c 1 t (ix2 k q) = W (ix2 k q) := by
    show V c (Pipeline.arrRef spec2 1) (((cfg2.win 1).blk t).view.emb (ix2 k q)) = _
    rw [hr]
    exact congrFun hW _
  rw [h0, h1]

/-- An index of the output array is in point `t`'s block iff each coordinate is in the block's range on its axis. -/
theorem inBlock2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v72).slice (win2_2.rect t)).set ↔ _
  rw [View.set_slice_whole, Rect.mem_set_unit]
  exact Iff.rfl

/-- The ten blocks tile the output: row `r` is in the block of point `r / 5000`, and every point writes back. -/
theorem tiled2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, e20, e21⟩ := blockIndex2 t
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE OUTPUT ARRAY after launch 2 is the product of the un-narrowed arrays (`Cert.Gcn.prod3` abbreviates that
    `dot_general`): every point writes back block `t` of it, and the blocks tile the array. -/
theorem region2_out (V : (c : Dev nD) → (b : Ref sig .tc) → Buf (Elt Ideal) ((c : Thread nD τ).loc b)) (c : Dev nD)
    (X : (⟨S50000x256, .f32⟩ : BufTy).Contents (Elt Ideal)) (W : (⟨S256x64, .f32⟩ : BufTy).Contents (Elt Ideal))
    (hX : V c (Pipeline.arrRef spec2 0) = truncf (F := Ideal) .bf16 X bitsLt_bf16_f32)
    (hW : V c (Pipeline.arrRef spec2 1) = truncf (F := Ideal) .bf16 W bitsLt_bf16_f32) :
    (dat2 (F := Ideal) V c).arrAt 2 cfg2.N = Cert.Gcn.prod3 (F := Ideal) X W :=
  (dat2 (F := Ideal) V c).arrAt_eq_of_cover 2 _ (fun t _ => written2 V c X W hX hW t) tiled2

end Cert.KernelIdeal.RegionValue

end
-- ==== Proof.RegionValue.lean ====
/- The three launches of the kernel, each read as one whole-array statement: after launch k the output array is the
   matrix product of the two un-narrowed f32 arrays whose narrowed copies the launch was given
   (`region0_out`, `region1_out`, `region2_out`, one module per launch). -/
import proofs.«138306_j10333691314775_1_alg».proof.Proof.Region0
import proofs.«138306_j10333691314775_1_alg».proof.Proof.Region1
import proofs.«138306_j10333691314775_1_alg».proof.Proof.Region2
-- ==== Proof.KernelValue.lean ====
/-
  The idealized kernel program's result array as ONE function of the argument arrays.

  The run's fold is walked from the launch to the return. Each matrix product finds its operands at what the host
  operations before it left (the previous layer's output, narrowed to sixteen bits — at the exact instance, unchanged)
  and leaves the reference's product of them; a buffer that a product does not own crosses it unchanged, and the edge
  lists, the edge weights and the later layers' parameters are carried from stretch to stretch. At the end the result
  buffer holds the network (Spec) of the arguments, with each layer's product the reference's.
-/
import proofs.«138306_j10333691314775_1_alg».proof.Proof.KernelHost
import proofs.«138306_j10333691314775_1_alg».proof.Proof.Products
import Idealize.ShloMosaic.PureOps.Ideal
import proofs.«138306_j10333691314775_1_alg».proof.Proof.RegionValue

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostValue Cert.KernelIdeal.RegionValue

variable (m : (ℓ : Loc nD τ sig) → Buf (Elt Ideal) ℓ) (ρ : Dev nD → PrngReg)

/-! ## After the first product -/

theorem exit0_v5 (c : Dev nD) : W4 m ρ c (Proc.devRef .tc main_v5) = (Cert.Gcn.srcOf (m ((c : Thread nD τ).loc main_arg1))) :=
  (W4_of_ne m ρ c main_v5 (by decide)).trans (entry0_src m ρ c)
theorem exit0_v6 (c : Dev nD) : W4 m ρ c (Proc.devRef .tc main_v6) = (Cert.Gcn.dstOf (m ((c : Thread nD τ).loc main_arg1))) :=
  (W4_of_ne m ρ c main_v6 (by decide)).trans (entry0_dst m ρ c)
theorem exit0_v29 (c : Dev nD) : W4 m ρ c (Proc.devRef .tc main_v29) = (Cert.Gcn.normOf (Cert.Gcn.srcOf (m ((c : Thread nD τ).loc main_arg1))) (Cert.Gcn.dstOf (m ((c : Thread nD τ).loc main_arg1)))) :=
  (W4_of_ne m ρ c main_v29 (by decide)).trans (entry0_norm m ρ c)
theorem exit0_arg3 (c : Dev nD) : W4 m ρ c (Proc.devRef .tc main_arg3) = (m ((c : Thread nD τ).loc main_arg3)) :=
  (W4_of_ne m ρ c main_arg3 (by decide)).trans (entry0_arg3 m ρ c)
theorem exit0_arg4 (c : Dev nD) : W4 m ρ c (Proc.devRef .tc main_arg4) = (m ((c : Thread nD τ).loc main_arg4)) :=
  (W4_of_ne m ρ c main_arg4 (by decide)).trans (entry0_arg4 m ρ c)
theorem exit0_arg5 (c : Dev nD) : W4 m ρ c (Proc.devRef .tc main_arg5) = (m ((c : Thread nD τ).loc main_arg5)) :=
  (W4_of_ne m ρ c main_arg5 (by decide)).trans (entry0_arg5 m ρ c)
theorem exit0_arg6 (c : Dev nD) : W4 m ρ c (Proc.devRef .tc main_arg6) = (m ((c : Thread nD τ).loc main_arg6)) :=
  (W4_of_ne m ρ c main_arg6 (by decide)).trans (entry0_arg6 m ρ c)
theorem exit0_arg7 (c : Dev nD) : W4 m ρ c (Proc.devRef .tc main_arg7) = (m ((c : Thread nD τ).loc main_arg7)) :=
  (W4_of_ne m ρ c main_arg7 (by decide)).trans (entry0_arg7 m ρ c)

/-- The first product's result array is the reference's product of the features and the first weight matrix. -/
theorem exit0_prod (c : Dev nD) : W4 m ρ c (Proc.devRef .tc main_v32) = Cert.Gcn.prod1 (m ((c : Thread nD τ).loc main_arg0)) (m ((c : Thread nD τ).loc main_arg2)) :=
  (W4_arr m ρ c 2).trans (region0_out (V3 m ρ) c _ _ (entry0_lhs m ρ c) (entry0_rhs m ρ c))

/-! ## At the second product -/

theorem in1_lhs (c : Dev nD) : W7 m ρ c (Proc.devRef .tc main_v50) = truncf (F := Ideal) .bf16 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod1 (m ((c : Thread nD τ).loc main_arg0)) (m ((c : Thread nD τ).loc main_arg2))) (m ((c : Thread nD τ).loc main_arg3)))) bitsLt_bf16_f32 := by
  rw [entry1_lhs m ρ c, exit0_v5 m ρ c, exit0_v6 m ρ c, exit0_v29 m ρ c, exit0_prod m ρ c, exit0_arg3 m ρ c]
theorem in1_rhs (c : Dev nD) : W7 m ρ c (Proc.devRef .tc main_v51) = truncf (F := Ideal) .bf16 (m ((c : Thread nD τ).loc main_arg4)) bitsLt_bf16_f32 := by
  rw [entry1_rhs m ρ c, exit0_arg4 m ρ c]
theorem in1_v5 (c : Dev nD) : W7 m ρ c (Proc.devRef .tc main_v5) = (Cert.Gcn.srcOf (m ((c : Thread nD τ).loc main_arg1))) := (carry1_v5 m ρ c).trans (exit0_v5 m ρ c)
theorem in1_v6 (c : Dev nD) : W7 m ρ c (Proc.devRef .tc main_v6) = (Cert.Gcn.dstOf (m ((c : Thread nD τ).loc main_arg1))) := (carry1_v6 m ρ c).trans (exit0_v6 m ρ c)
theorem in1_v29 (c : Dev nD) : W7 m ρ c (Proc.devRef .tc main_v29) = (Cert.Gcn.normOf (Cert.Gcn.srcOf (m ((c : Thread nD τ).loc main_arg1))) (Cert.Gcn.dstOf (m ((c : Thread nD τ).loc main_arg1)))) := (carry1_v29 m ρ c).trans (exit0_v29 m ρ c)
theorem in1_arg5 (c : Dev nD) : W7 m ρ c (Proc.devRef .tc main_arg5) = (m ((c : Thread nD τ).loc main_arg5)) := (carry1_arg5 m ρ c).trans (exit0_arg5 m ρ c)
theorem in1_arg6 (c : Dev nD) : W7 m ρ c (Proc.devRef .tc main_arg6) = (m ((c : Thread nD τ).loc main_arg6)) := (carry1_arg6 m ρ c).trans (exit0_arg6 m ρ c)
theorem in1_arg7 (c : Dev nD) : W7 m ρ c (Proc.devRef .tc main_arg7) = (m ((c : Thread nD τ).loc main_arg7)) := (carry1_arg7 m ρ c).trans (exit0_arg7 m ρ c)

/-- The second product's result array. -/
theorem exit1_prod (c : Dev nD) : W8 m ρ c (Proc.devRef .tc main_v52) = Cert.Gcn.prod2 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod1 (m ((c : Thread nD τ).loc main_arg0)) (m ((c : Thread nD τ).loc main_arg2))) (m ((c : Thread nD τ).loc main_arg3)))) (m ((c : Thread nD τ).loc main_arg4)) :=
  (W8_arr m ρ c 2).trans (region1_out (V7 m ρ) c _ _ (in1_lhs m ρ c) (in1_rhs m ρ c))
theorem exit1_v5 (c : Dev nD) : W8 m ρ c (Proc.devRef .tc main_v5) = (Cert.Gcn.srcOf (m ((c : Thread nD τ).loc main_arg1))) :=
  (W8_of_ne m ρ c main_v5 (by decide)).trans (in1_v5 m ρ c)
theorem exit1_v6 (c : Dev nD) : W8 m ρ c (Proc.devRef .tc main_v6) = (Cert.Gcn.dstOf (m ((c : Thread nD τ).loc main_arg1))) :=
  (W8_of_ne m ρ c main_v6 (by decide)).trans (in1_v6 m ρ c)
theorem exit1_v29 (c : Dev nD) : W8 m ρ c (Proc.devRef .tc main_v29) = (Cert.Gcn.normOf (Cert.Gcn.srcOf (m ((c : Thread nD τ).loc main_arg1))) (Cert.Gcn.dstOf (m ((c : Thread nD τ).loc main_arg1)))) :=
  (W8_of_ne m ρ c main_v29 (by decide)).trans (in1_v29 m ρ c)
theorem exit1_arg5 (c : Dev nD) : W8 m ρ c (Proc.devRef .tc main_arg5) = (m ((c : Thread nD τ).loc main_arg5)) :=
  (W8_of_ne m ρ c main_arg5 (by decide)).trans (in1_arg5 m ρ c)
theorem exit1_arg6 (c : Dev nD) : W8 m ρ c (Proc.devRef .tc main_arg6) = (m ((c : Thread nD τ).loc main_arg6)) :=
  (W8_of_ne m ρ c main_arg6 (by decide)).trans (in1_arg6 m ρ c)
theorem exit1_arg7 (c : Dev nD) : W8 m ρ c (Proc.devRef .tc main_arg7) = (m ((c : Thread nD τ).loc main_arg7)) :=
  (W8_of_ne m ρ c main_arg7 (by decide)).trans (in1_arg7 m ρ c)

/-! ## At the third product -/

theorem in2_lhs (c : Dev nD) : W11 m ρ c (Proc.devRef .tc main_v70) = truncf (F := Ideal) .bf16 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod2 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod1 (m ((c : Thread nD τ).loc main_arg0)) (m ((c : Thread nD τ).loc main_arg2))) (m ((c : Thread nD τ).loc main_arg3)))) (m ((c : Thread nD τ).loc main_arg4))) (m ((c : Thread nD τ).loc main_arg5)))) bitsLt_bf16_f32 := by
  rw [entry2_lhs m ρ c, exit1_v5 m ρ c, exit1_v6 m ρ c, exit1_v29 m ρ c, exit1_prod m ρ c, exit1_arg5 m ρ c]
theorem in2_rhs (c : Dev nD) : W11 m ρ c (Proc.devRef .tc main_v71) = truncf (F := Ideal) .bf16 (m ((c : Thread nD τ).loc main_arg6)) bitsLt_bf16_f32 := by
  rw [entry2_rhs m ρ c, exit1_arg6 m ρ c]
theorem in2_v5 (c : Dev nD) : W11 m ρ c (Proc.devRef .tc main_v5) = (Cert.Gcn.srcOf (m ((c : Thread nD τ).loc main_arg1))) := (carry2_v5 m ρ c).trans (exit1_v5 m ρ c)
theorem in2_v6 (c : Dev nD) : W11 m ρ c (Proc.devRef .tc main_v6) = (Cert.Gcn.dstOf (m ((c : Thread nD τ).loc main_arg1))) := (carry2_v6 m ρ c).trans (exit1_v6 m ρ c)
theorem in2_v29 (c : Dev nD) : W11 m ρ c (Proc.devRef .tc main_v29) = (Cert.Gcn.normOf (Cert.Gcn.srcOf (m ((c : Thread nD τ).loc main_arg1))) (Cert.Gcn.dstOf (m ((c : Thread nD τ).loc main_arg1)))) := (carry2_v29 m ρ c).trans (exit1_v29 m ρ c)
theorem in2_arg7 (c : Dev nD) : W11 m ρ c (Proc.devRef .tc main_arg7) = (m ((c : Thread nD τ).loc main_arg7)) := (carry2_arg7 m ρ c).trans (exit1_arg7 m ρ c)

/-- The third product's result array. -/
theorem exit2_prod (c : Dev nD) : W12 m ρ c (Proc.devRef .tc main_v72) = Cert.Gcn.prod3 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod2 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod1 (m ((c : Thread nD τ).loc main_arg0)) (m ((c : Thread nD τ).loc main_arg2))) (m ((c : Thread nD τ).loc main_arg3)))) (m ((c : Thread nD τ).loc main_arg4))) (m ((c : Thread nD τ).loc main_arg5)))) (m ((c : Thread nD τ).loc main_arg6)) :=
  (W12_arr m ρ c 2).trans (region2_out (V11 m ρ) c _ _ (in2_lhs m ρ c) (in2_rhs m ρ c))
theorem exit2_v5 (c : Dev nD) : W12 m ρ c (Proc.devRef .tc main_v5) = (Cert.Gcn.srcOf (m ((c : Thread nD τ).loc main_arg1))) :=
  (W12_of_ne m ρ c main_v5 (by decide)).trans (in2_v5 m ρ c)
theorem exit2_v6 (c : Dev nD) : W12 m ρ c (Proc.devRef .tc main_v6) = (Cert.Gcn.dstOf (m ((c : Thread nD τ).loc main_arg1))) :=
  (W12_of_ne m ρ c main_v6 (by decide)).trans (in2_v6 m ρ c)
theorem exit2_v29 (c : Dev nD) : W12 m ρ c (Proc.devRef .tc main_v29) = (Cert.Gcn.normOf (Cert.Gcn.srcOf (m ((c : Thread nD τ).loc main_arg1))) (Cert.Gcn.dstOf (m ((c : Thread nD τ).loc main_arg1)))) :=
  (W12_of_ne m ρ c main_v29 (by decide)).trans (in2_v29 m ρ c)
theorem exit2_arg7 (c : Dev nD) : W12 m ρ c (Proc.devRef .tc main_arg7) = (m ((c : Thread nD τ).loc main_arg7)) :=
  (W12_of_ne m ρ c main_arg7 (by decide)).trans (in2_arg7 m ρ c)

/-! ## The result -/

/-- The last boundary's contents at the result buffer, spelt out. -/
theorem result_raw (c : Dev nD) : W13 m ρ c (Proc.devRef .tc main_v88) = Cert.Gcn.agg64 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod3 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod2 (Cert.Gcn.relu256 (Cert.Gcn.agg256 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.prod1 (m ((c : Thread nD τ).loc main_arg0)) (m ((c : Thread nD τ).loc main_arg2))) (m ((c : Thread nD τ).loc main_arg3)))) (m ((c : Thread nD τ).loc main_arg4))) (m ((c : Thread nD τ).loc main_arg5)))) (m ((c : Thread nD τ).loc main_arg6))) (m ((c : Thread nD τ).loc main_arg7)) := by
  rw [HostValue.result_eq m ρ c, exit2_v5 m ρ c, exit2_v6 m ρ c, exit2_v29 m ρ c, exit2_prod m ρ c, exit2_arg7 m ρ c]

/-- The idealized kernel program's result is the network of the argument arrays, over the reference's three products. -/
theorem result (c : Dev nD) : W13 m ρ c (Proc.devRef .tc main_v88) =
    Cert.Gcn.gcn (Cert.Gcn.prod1 (F := Ideal)) (Cert.Gcn.prod2 (F := Ideal)) (Cert.Gcn.prod3 (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (result_raw m ρ c).trans rfl

end Cert.KernelIdeal.KernelValue

end
-- ==== Proof.lean ====
/-
  A three-layer graph convolution network, kernel against reference: 50000 nodes, 800000 edges plus a self loop per
  node, feature widths 512 → 256 → 256 → 64. Each layer multiplies the node features by its weight matrix, then for
  every node adds up, over the edges arriving at it, the source node's row scaled by the edge's weight
  `deg(src)^(-1/2) · deg(dst)^(-1/2)`, and adds a bias; the first two layers are followed by `max · 0`.

  The two programs differ ONLY in the three matrix products. The reference does each as one host `dot_general` of f32
  arrays. The kernel narrows both operands to sixteen bits and does each product block by block: ten grid points, point
  `t` multiplying rows 5000·t … 5000·t + 4999 of the left operand by the whole right operand into a zero accumulator
  and writing those rows of the result. At the exact instance narrowing is the identity and an entry of either product
  is the same finite sum over `k` of `l[r, k] · w[k, c]`; the blocks tile the result array. Sums of extended reals are
  reordered nowhere and nothing is cancelled or distributed, so the precondition (finite inputs) is not used: the two
  results are equal for all extended-real inputs.

  Everything around the products — building the edge lists and weights, gather, scaling, scatter-add, bias, `max` — is
  one text in both programs (Proof/Spec.lean, `Cert.Gcn.gcn`, with the products as parameters), never opened.
  · Proof/RefRun.lean, Proof/RefValue.lean: the reference's run ends at `gcn` over its own products.
  · Proof/KernelRun.lean: the kernel program's run ends with the result buffer at the last boundary of the fold of
    buffer contents through @main's thirteen segments.
  · Proof/KernelHost.lean, Proof/Matmul*.lean, Proof/Region*.lean, Proof/KernelValue.lean: that boundary's contents at
    the result buffer are `gcn` over the SAME products.
  The three frames are the generated ones (the reference's: its run with the result dropped); the idealization rewrote
  nothing, so `preserves` has nothing to state.
-/
import proofs.«138306_j10333691314775_1_alg».proof.Defs
import proofs.«138306_j10333691314775_1_alg».proof.Proof.Gen.Kernel
import proofs.«138306_j10333691314775_1_alg».proof.Proof.Gen.Kernel.Skeleton
import proofs.«138306_j10333691314775_1_alg».proof.Proof.Gen.Kernel.Launch
import proofs.«138306_j10333691314775_1_alg».proof.Proof.Gen.Kernel.Points
import proofs.«138306_j10333691314775_1_alg».proof.Proof.Gen.Kernel.Frame
import proofs.«138306_j10333691314775_1_alg».proof.Proof.Gen.KernelIdeal
import proofs.«138306_j10333691314775_1_alg».proof.Proof.Gen.KernelIdeal.Skeleton
import proofs.«138306_j10333691314775_1_alg».proof.Proof.Gen.KernelIdeal.Launch
import proofs.«138306_j10333691314775_1_alg».proof.Proof.Gen.KernelIdeal.Points
import proofs.«138306_j10333691314775_1_alg».proof.Proof.Gen.KernelIdeal.Frame
import proofs.«138306_j10333691314775_1_alg».proof.Proof.Gen.ReferenceIdeal
import proofs.«138306_j10333691314775_1_alg».proof.Proof.Gen.Pre_finite_inputs
import proofs.«138306_j10333691314775_1_alg».proof.Proof.RefRun
import proofs.«138306_j10333691314775_1_alg».proof.Proof.RefValue
import proofs.«138306_j10333691314775_1_alg».proof.Proof.KernelRun
import proofs.«138306_j10333691314775_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result array at the network of the
    arguments, over the same three products. -/
theorem algebraic : Cert.algebraic_KernelIdeal_ReferenceIdeal := by
  intro m ρ m' ρ' _ hagree
  refine ⟨fun c => Cert.Gcn.gcn (Cert.Gcn.prod1 (F := Ideal)) (Cert.Gcn.prod2 (F := Ideal)) (Cert.Gcn.prod3 (F := Ideal))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
